-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x32x32x32x32 : Shape := ⟨6, ![2, 16, 32, 32, 32, 32]⟩
abbrev S_ : Shape := ⟨0, ![]⟩

class Facts : Prop where
  bcast_S_S2x16x32x32x32x32 : S_.BroadcastsInDim S2x16x32x32x32x32 (![] : Fin 0 → Fin S2x16x32x32x32x32.rank)
  reducesTo_S2x16x32x32x32x32_S_d0_1_2_3_4_5 : S2x16x32x32x32x32.ReducesTo [0, 1, 2, 3, 4, 5] S_
  h_S_ : 0 < S_.numel

variable [Facts]

def fn {F : FTy → Type} [FloatOps F] (main_arg0 : FVec F S2x16x32x32x32x32 .f32) : IVec S_ 1 :=
  let main_v0 : FVec F S2x16x32x32x32x32 .f32 := Host.absf main_arg0
  let main_cst : FVec F S_ .f32 := constant S_ .f32 0x7F800000#32
  let main_v1 : FVec F S2x16x32x32x32x32 .f32 := broadcastInDim S2x16x32x32x32x32 ![] bcast_S_S2x16x32x32x32x32 main_cst
  let main_v2 : IVec S2x16x32x32x32x32 1 := cmpf .olt main_v0 main_v1
  let main_c : IVec S_ 1 := constantI S_ 1 1#1
  let main_v3 : IVec S_ 1 := (fun x v => Host.reduce IntOp.andi x v reducesTo_S2x16x32x32x32x32_S_d0_1_2_3_4_5 h_S_) main_v2 main_c
  main_v3
-- ==== Kernel.lean ====
abbrev S2x16x32x32x32x32 : Shape := ⟨6, ![2, 16, 32, 32, 32, 32]⟩
abbrev S2x16x16x16x16x16 : Shape := ⟨6, ![2, 16, 16, 16, 16, 16]⟩
abbrev S1x1x16x32x32x32 : Shape := ⟨6, ![1, 1, 16, 32, 32, 32]⟩
abbrev S1x1x8x16x16x16 : Shape := ⟨6, ![1, 1, 8, 16, 16, 16]⟩
abbrev S16x32x32x32 : Shape := ⟨4, ![16, 32, 32, 32]⟩
abbrev S8x2x16x2x16x2x16x2 : Shape := ⟨8, ![8, 2, 16, 2, 16, 2, 16, 2]⟩
abbrev S8x2x16x2x16x2x16 : Shape := ⟨7, ![8, 2, 16, 2, 16, 2, 16]⟩
abbrev S8x2x16x2x16x16 : Shape := ⟨6, ![8, 2, 16, 2, 16, 16]⟩
abbrev S8x2x16x16x16 : Shape := ⟨5, ![8, 2, 16, 16, 16]⟩
abbrev S8x16x16x16 : Shape := ⟨4, ![8, 16, 16, 16]⟩

abbrev nBuf : Space → Nat
  | .hbm => 2
  | .vmem => 4
  | .smem => 0
  | _ => 0

abbrev bufTy : (tb : Table) → Fin (tcTables nBuf tb) → BufTy
  | .hbm, ⟨0, _⟩ => ⟨S2x16x32x32x32x32, .f32⟩
  | .hbm, ⟨1, _⟩ => ⟨S2x16x16x16x16x16, .f32⟩
  | .local _ .vmem, ⟨0, _⟩ => ⟨S1x1x16x32x32x32, .f32⟩
  | .local _ .vmem, ⟨1, _⟩ => ⟨S1x1x16x32x32x32, .f32⟩
  | .local _ .vmem, ⟨2, _⟩ => ⟨S1x1x8x16x16x16, .f32⟩
  | .local _ .vmem, ⟨3, _⟩ => ⟨S1x1x8x16x16x16, .f32⟩
  | _, _ => ⟨S2x16x32x32x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨3, ![2, 16, 2], ![false, false, false]⟩

def cc0_transform_0 (i : grid0.Coords) : Fin 6 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, arg2.toNat, c0_i32.toNat, c0_i32_0.toNat, c0_i32_1.toNat]

def cc0_transform_1 (i : grid0.Coords) : Fin 6 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, arg2.toNat, c0_i32.toNat, c0_i32_0.toNat, c0_i32_1.toNat]

abbrev stage0_0 : Fin 2 → Memref sig .tc .vmem S1x1x16x32x32x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x8x16x16x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

class Facts₀ : Prop where
  inb_S1x1x16x32x32x32_S1x1x16x32x32x32_0_0_0_0_0_0 : ∀ a, (![0, 0, 0, 0, 0, 0] : Fin 6 → Nat) a + S1x1x16x32x32x32.size a ≤ S1x1x16x32x32x32.size a
  h_S1x1x16x32x32x32 : 0 < S1x1x16x32x32x32.numel
  shapeCasts_S1x1x16x32x32x32_S16x32x32x32 : S1x1x16x32x32x32.ShapeCasts S16x32x32x32
  shapeCasts_S16x32x32x32_S8x2x16x2x16x2x16x2 : S16x32x32x32.ShapeCasts S8x2x16x2x16x2x16x2
  reduces_S8x2x16x2x16x2x16x2_S8x2x16x2x16x2x16 : S8x2x16x2x16x2x16x2.Reduces [7] S8x2x16x2x16x2x16
  reduces_S8x2x16x2x16x2x16_S8x2x16x2x16x16 : S8x2x16x2x16x2x16.Reduces [5] S8x2x16x2x16x16
  reduces_S8x2x16x2x16x16_S8x2x16x16x16 : S8x2x16x2x16x16.Reduces [3] S8x2x16x16x16
  reduces_S8x2x16x16x16_S8x16x16x16 : S8x2x16x16x16.Reduces [1] S8x16x16x16
  inb_S1x1x8x16x16x16_S1x1x8x16x16x16_0_0_0_0_0_0 : ∀ a, (![0, 0, 0, 0, 0, 0] : Fin 6 → Nat) a + S1x1x8x16x16x16.size a ≤ S1x1x8x16x16x16.size a
  h_S1x1x8x16x16x16 : 0 < S1x1x8x16x16x16.numel
  shapeCasts_S1x1x8x16x16x16_S8x16x16x16 : S1x1x8x16x16x16.ShapeCasts S8x16x16x16
  shapeCasts_S8x16x16x16_S1x1x8x16x16x16 : S8x16x16x16.ShapeCasts S1x1x8x16x16x16
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x16x32x32x32.size a ≤ S2x16x32x32x32x32.size a
  hwx0_0 : ∀ i : grid0.Coords, EltTy.bits .f32 = 32 ∨ (Rect.block (s := S2x16x32x32x32x32) S1x1x16x32x32x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x8x16x16x16.size a ≤ S2x16x16x16x16x16.size a
  hwx0_1 : ∀ i : grid0.Coords, EltTy.bits .f32 = 32 ∨ (Rect.block (s := S2x16x16x16x16x16) S1x1x8x16x16x16.size (cc0_transform_1 i) (hinb0_1 i)).WholeWords (EltTy.packing .f32)

variable [Facts₀]

abbrev win0_0 : Pipeline.Window sig grid0 :=
  Pipeline.Window.ofSpec (Memref.whole main_arg0) S1x1x16x32x32x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x8x16x16x16.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2x16x32x32x32x32 : Shape := ⟨6, ![2, 16, 32, 32, 32, 32]⟩
abbrev S_ : Shape := ⟨0, ![]⟩
abbrev S2x16x16x16x16x16 : Shape := ⟨6, ![2, 16, 16, 16, 16, 16]⟩

abbrev nBuf : Space → Nat
  | .hbm => 3
  | .vmem => 0
  | .smem => 0
  | _ => 0

abbrev bufTy : (tb : Table) → Fin (tcTables nBuf tb) → BufTy
  | .hbm, ⟨0, _⟩ => ⟨S2x16x32x32x32x32, .f32⟩
  | .hbm, ⟨1, _⟩ => ⟨S_, .f32⟩
  | .hbm, ⟨2, _⟩ => ⟨S2x16x16x16x16x16, .f32⟩
  | _, _ => ⟨S2x16x32x32x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  reduceWindows_S2x16x32x32x32x32_S2x16x16x16x16x16_w1s1p0_0_w1s1p0_0_w2s2p0_0_w2s2p0_0_w2s2p0_0_w2s2p0_0 : S2x16x32x32x32x32.ReduceWindows (![1, 1, 2, 2, 2, 2] : Fin 6 → Nat) ![1, 1, 2, 2, 2, 2] ![0, 0, 0, 0, 0, 0] ![0, 0, 0, 0, 0, 0] S2x16x16x16x16x16
  h_S_ : 0 < S_.numel

variable [Facts₀]

class Facts : Prop extends Facts₀ where

variable [Facts]
-- ==== Proof.PoolSpec.lean ====
/-
  Max pooling with window 2 and stride 2 on each of the last four axes of a [2, 16, 32, 32, 32, 32] array, stated once as a
  function of the array, index by index: the result at (n, k, t, d, h, w) is the largest of the sixteen entries
  (n, k, 2t + a, 2d + b, 2h + c, 2w + e), a, b, c, e ∈ {0, 1}, folded together with the value every fold starts from (the
  f32 word of −∞ read as an extended real).

  Everything here rests on one property of `max`: a fold of `max` from a seed over some entries is below `z` exactly when
  the seed and every entry are below `z`. Two folds of the same entries from the same seed therefore have the same upper
  bounds, whatever their order and grouping, and are equal. The seed is never evaluated, and no entry needs to be finite.
-/
import Idealize.ShloMosaic.PureOps.Ideal
import Idealize.ShloMosaic.Lib.ValueIdxRank6
import Mathlib.Data.Finset.Fold

noncomputable section

namespace Cert.Pool

open Idealize.ShloMosaic Idealize.ShloMosaic.ValueIdx

/-- The array pooled and the pooled array's index sets. -/
abbrev Src : Shape := ⟨6, ![2, 16, 32, 32, 32, 32]⟩
abbrev Dst : Shape := ⟨6, ![2, 16, 16, 16, 16, 16]⟩

/-- The value every fold starts from: the f32 word of −∞, read at the extended reals. -/
abbrev seed : Ideal .f32 := FloatOps.ofBits (F := Ideal) .f32 0xFF800000#32

/-- The larger of the two values of `f`, folded from the seed. -/
def pmax (f : Fin 2 → Ideal .f32) : Ideal .f32 := (Finset.univ : Finset (Fin 2)).fold max seed f

/-- Its upper bounds: those of the seed and of both values. -/
theorem pmax_le_iff (f : Fin 2 → Ideal .f32) (z : Ideal .f32) : pmax f ≤ z ↔ seed ≤ z ∧ ∀ k, f k ≤ z := by
  unfold pmax
  rw [Finset.fold_max_le]
  exact and_congr_right fun _ => ⟨fun h k => h k (Finset.mem_univ k), fun h k _ => h k⟩

/-- The entry of the window of result index `i` at offsets (a, b, c, e) on the four pooled axes:
    (i₀, i₁, 2·i₂ + a, 2·i₃ + b, 2·i₄ + c, 2·i₅ + e). -/
def win (i : Dst.Idx) (a b c e : Fin 2) : Src.Idx :=
  ix6 (n0 := 2) (n1 := 16) (n2 := 32) (n3 := 32) (n4 := 32) (n5 := 32) (i 0) (i 1)
    ⟨2 * (i 2).val + a.val, by have h : (i 2).val < 16 := (i 2).isLt; omega⟩
    ⟨2 * (i 3).val + b.val, by have h : (i 3).val < 16 := (i 3).isLt; omega⟩
    ⟨2 * (i 4).val + c.val, by have h : (i 4).val < 16 := (i 4).isLt; omega⟩
    ⟨2 * (i 5).val + e.val, by have h : (i 5).val < 16 := (i 5).isLt; omega⟩

/-- Max pooling: at each result index the window's sixteen entries, folded axis by axis (the outermost fold over the first
    pooled axis). -/
def maxPool (x : Src.Idx → Ideal .f32) : Dst.Idx → Ideal .f32 :=
  fun i => pmax fun a => pmax fun b => pmax fun c => pmax fun e => x (win i a b c e)

/-- Its upper bounds at an index: those of the seed and of the window's sixteen entries. -/
theorem maxPool_le_iff (x : Src.Idx → Ideal .f32) (i : Dst.Idx) (z : Ideal .f32) :
    maxPool x i ≤ z ↔ seed ≤ z ∧ ∀ a b c e, x (win i a b c e) ≤ z := by
  unfold maxPool
  simp only [pmax_le_iff]
  constructor
  · rintro ⟨hs, h⟩
    exact ⟨hs, fun a b c e => (((h a).2 b).2 c).2 e⟩
  · rintro ⟨hs, h⟩
    exact ⟨hs, fun a => ⟨hs, fun b => ⟨hs, fun c => ⟨hs, fun e => h a b c e⟩⟩⟩⟩

end Cert.Pool

end
-- ==== Proof.LibRank8.lean ====
/-
  The row-major position of a rank-8 index as one sum of products: position = (((((((i₀·d₁ + i₁)·d₂ + i₂)·d₃ + i₃)·d₄ + i₄)·d₅
  + i₅)·d₆ + i₆)·d₇ + i₇. It is the rank-8 member of the family that writes a position in a form linear arithmetic can use
  (ranks 1 to 6 are in the library); a reshape between two shapes is read at an index by equating two such positions.
-/
import Idealize.ShloMosaic.Lib.ValueIdxRank6

namespace Idealize.ShloMosaic

/-- Rank 8: the row-major position as one sum of products (each leading coordinate weighs the number of tuples of the axes
    after it, so peeling the eight axes one at a time and multiplying out gives the nested form). -/
theorem Shape.rowMajor_val_eight {d : Fin 8 → Nat} (i : (⟨8, d⟩ : Shape).Idx) :
    ((⟨8, d⟩ : Shape).rowMajor i).val
      = (((((((i 0).val * d 1 + (i 1).val) * d 2 + (i 2).val) * d 3 + (i 3).val) * d 4 + (i 4).val) * d 5 + (i 5).val) * d 6
          + (i 6).val) * d 7 + (i 7).val := by
  show (Shape.rowMajorPi d i).val = _
  rw [Shape.rowMajorPi_succ_val, Shape.rowMajorPi_succ_val, Shape.rowMajorPi_succ_val, Shape.rowMajorPi_succ_val,
    Shape.rowMajorPi_succ_val, Shape.rowMajorPi_succ_val, Shape.rowMajorPi_succ_val, Shape.rowMajorPi_succ_val]
  simp [Shape.rowMajorPi_zero, Fin.prod_univ_succ, Nat.add_mul, Nat.mul_assoc, Nat.add_assoc]

end Idealize.ShloMosaic
-- ==== Proof.KernelBlock.lean ====
/-
  What the kernel's body computes from one loaded block, read at an index. The body reshapes its [1, 1, 16, 32, 32, 32] block
  to [8, 2, 16, 2, 16, 2, 16, 2] — each pooled axis split into (outer, pair) — takes the maximum over the four pair axes one
  at a time, last axis first, and reshapes the [8, 16, 16, 16] result to [1, 1, 8, 16, 16, 16]. At the block index
  (0, 0, t, d, h, w) that is the nested fold, over a, b, c, e ∈ {0, 1}, of the block at (0, 0, 2t + a, 2d + b, 2h + c, 2w + e):
  a reshape keeps the row-major position, and the position of (t, a, d, b, h, c, w, e) in the split shape is the position of
  (2t + a, 2d + b, 2h + c, 2w + e) in [16, 32, 32, 32].
-/
import proofs.«172834_j31190052504126_2_alg».proof.Proof.Gen.KernelIdeal.Skeleton
import proofs.«172834_j31190052504126_2_alg».proof.Proof.PoolSpec
import proofs.«172834_j31190052504126_2_alg».proof.Proof.LibRank8
import Idealize.ShloMosaic.PureOps.Ideal.Laws
import Idealize.ShloMosaic.Lib.Pipeline.Value

noncomputable section

namespace Cert.KernelIdeal.Block

open Cert.KernelIdeal Cert.KernelIdeal.Gen Idealize.ShloMosaic Idealize.ShloMosaic.ValueIdx Cert.Pool

/-- The entry of the loaded block that the window of block index `y` meets at offsets (a, b, c, e):
    (0, 0, 2·y₂ + a, 2·y₃ + b, 2·y₄ + c, 2·y₅ + e). -/
def bwin (y : S1x1x8x16x16x16.Idx) (a b c e : Fin 2) : S1x1x16x32x32x32.Idx :=
  ix6 (n0 := 1) (n1 := 1) (n2 := 16) (n3 := 32) (n4 := 32) (n5 := 32) (0 : Fin 1) (0 : Fin 1)
    ⟨2 * (y 2).val + a.val, by have h : (y 2).val < 8 := (y 2).isLt; omega⟩
    ⟨2 * (y 3).val + b.val, by have h : (y 3).val < 16 := (y 3).isLt; omega⟩
    ⟨2 * (y 4).val + c.val, by have h : (y 4).val < 16 := (y 4).isLt; omega⟩
    ⟨2 * (y 5).val + e.val, by have h : (y 5).val < 16 := (y 5).isLt; omega⟩

/-- The four trailing coordinates of a block index, as an index of the [8, 16, 16, 16] result. -/
def tail4 (y : S1x1x8x16x16x16.Idx) : S8x16x16x16.Idx :=
  ix4 (n0 := 8) (n1 := 16) (n2 := 16) (n3 := 16) (y 2) (y 3) (y 4) (y 5)

/-- The last reshape, [8, 16, 16, 16] to [1, 1, 8, 16, 16, 16], read at a block index: the two leading unit axes add nothing
    to the position. -/
theorem cast_out (v : S8x16x16x16.Idx → Ideal .f32) (h : S8x16x16x16.ShapeCasts S1x1x8x16x16x16) (y : S1x1x8x16x16x16.Idx) :
    shapeCast S1x1x8x16x16x16 v h y = v (tail4 y) := by
  refine shapeCast_apply v h y (tail4 y) ?_
  rw [Shape.rowMajor_val_four, Shape.rowMajor_val_six]
  have h0 : (y 0).val < 1 := (y 0).isLt
  have h1 : (y 1).val < 1 := (y 1).isLt
  show (((y 2).val * 16 + (y 3).val) * 16 + (y 4).val) * 16 + (y 5).val
    = (((((y 0).val * 1 + (y 1).val) * 8 + (y 2).val) * 16 + (y 3).val) * 16 + (y 4).val) * 16 + (y 5).val
  omega

/-- The maximum over the first pair axis, at an index of the [8, 16, 16, 16] result. -/
theorem red1 (src : FVec Ideal S8x2x16x16x16 .f32) (h : S8x2x16x16x16.Reduces [1] S8x16x16x16) (hφ : FKind.Formats .f32)
    (hacc : (0xFF800000#32 : BitVec 32) = FKind.maximumf.neutral .f32 hφ) (j : S8x16x16x16.Idx) :
    multiReduction .maximumf [1] S8x16x16x16 src 0xFF800000#32 h hφ hacc j = pmax fun a => src (h.lift j a) :=
  Ideal.multiReduction_maximumf_single src _ h hφ hacc j

/-- The maximum over the second pair axis. -/
theorem red3 (src : FVec Ideal S8x2x16x2x16x16 .f32) (h : S8x2x16x2x16x16.Reduces [3] S8x2x16x16x16) (hφ : FKind.Formats .f32)
    (hacc : (0xFF800000#32 : BitVec 32) = FKind.maximumf.neutral .f32 hφ) (j : S8x2x16x16x16.Idx) :
    multiReduction .maximumf [3] S8x2x16x16x16 src 0xFF800000#32 h hφ hacc j = pmax fun b => src (h.lift j b) :=
  Ideal.multiReduction_maximumf_single src _ h hφ hacc j

/-- The maximum over the third pair axis. -/
theorem red5 (src : FVec Ideal S8x2x16x2x16x2x16 .f32) (h : S8x2x16x2x16x2x16.Reduces [5] S8x2x16x2x16x16) (hφ : FKind.Formats .f32)
    (hacc : (0xFF800000#32 : BitVec 32) = FKind.maximumf.neutral .f32 hφ) (j : S8x2x16x2x16x16.Idx) :
    multiReduction .maximumf [5] S8x2x16x2x16x16 src 0xFF800000#32 h hφ hacc j = pmax fun c => src (h.lift j c) :=
  Ideal.multiReduction_maximumf_single src _ h hφ hacc j

/-- The maximum over the last pair axis. -/
theorem red7 (src : FVec Ideal S8x2x16x2x16x2x16x2 .f32) (h : S8x2x16x2x16x2x16x2.Reduces [7] S8x2x16x2x16x2x16) (hφ : FKind.Formats .f32)
    (hacc : (0xFF800000#32 : BitVec 32) = FKind.maximumf.neutral .f32 hφ) (j : S8x2x16x2x16x2x16.Idx) :
    multiReduction .maximumf [7] S8x2x16x2x16x2x16 src 0xFF800000#32 h hφ hacc j = pmax fun e => src (h.lift j e) :=
  Ideal.multiReduction_maximumf_single src _ h hφ hacc j

/-- The two leading reshapes, [1, 1, 16, 32, 32, 32] to [16, 32, 32, 32] to the split shape, read at the split index
    (t, a, d, b, h, c, w, e) built by inserting the four pair coordinates into (t, d, h, w): the block at
    (0, 0, 2t + a, 2d + b, 2h + c, 2w + e). -/
theorem cast_in (v0 : S1x1x16x32x32x32.Idx → Ideal .f32) (hc1 : S1x1x16x32x32x32.ShapeCasts S16x32x32x32)
    (hc2 : S16x32x32x32.ShapeCasts S8x2x16x2x16x2x16x2)
    (h7 : S8x2x16x2x16x2x16x2.Reduces [7] S8x2x16x2x16x2x16) (h5 : S8x2x16x2x16x2x16.Reduces [5] S8x2x16x2x16x16)
    (h3 : S8x2x16x2x16x16.Reduces [3] S8x2x16x16x16) (h1 : S8x2x16x16x16.Reduces [1] S8x16x16x16)
    (y : S1x1x8x16x16x16.Idx) (a b c e : Fin 2) :
    shapeCast S8x2x16x2x16x2x16x2 (shapeCast S16x32x32x32 v0 hc1) hc2
        (h7.lift (h5.lift (h3.lift (h1.lift (tail4 y) a) b) c) e)
      = v0 (bwin y a b c e) := by
  have hy2 : (y 2).val < 8 := (y 2).isLt
  have hy3 : (y 3).val < 16 := (y 3).isLt
  have hy4 : (y 4).val < 16 := (y 4).isLt
  have hy5 : (y 5).val < 16 := (y 5).isLt
  have ha : a.val < 2 := a.isLt
  have hb : b.val < 2 := b.isLt
  have hc : c.val < 2 := c.isLt
  have he : e.val < 2 := e.isLt
  refine (shapeCast_apply _ hc2 _
    (ix4 (n0 := 16) (n1 := 32) (n2 := 32) (n3 := 32)
      ⟨2 * (y 2).val + a.val, by omega⟩ ⟨2 * (y 3).val + b.val, by omega⟩
      ⟨2 * (y 4).val + c.val, by omega⟩ ⟨2 * (y 5).val + e.val, by omega⟩) ?_).trans
    (shapeCast_apply v0 hc1 _ (bwin y a b c e) ?_)
  · rw [Shape.rowMajor_val_four, Shape.rowMajor_val_eight]
    show (((2 * (y 2).val + a.val) * 32 + (2 * (y 3).val + b.val)) * 32 + (2 * (y 4).val + c.val)) * 32 + (2 * (y 5).val + e.val)
      = ((((((((y 2).val * 2 + a.val) * 16 + (y 3).val) * 2 + b.val) * 16 + (y 4).val) * 2 + c.val) * 16 + (y 5).val) * 2 + e.val)
    omega
  · rw [Shape.rowMajor_val_six, Shape.rowMajor_val_four]
    show (((((0 * 1 + 0) * 16 + (2 * (y 2).val + a.val)) * 32 + (2 * (y 3).val + b.val)) * 32 + (2 * (y 4).val + c.val)) * 32
        + (2 * (y 5).val + e.val))
      = (((2 * (y 2).val + a.val) * 32 + (2 * (y 3).val + b.val)) * 32 + (2 * (y 4).val + c.val)) * 32 + (2 * (y 5).val + e.val)
    omega

/-- THE BODY'S RESULT AT A BLOCK INDEX: the nested fold of the loaded block over the window's sixteen entries. -/
theorem pay_apply (v0 : Vec Ideal S1x1x16x32x32x32 .f32) (y : S1x1x8x16x16x16.Idx) :
    k0_pay1 (F := Ideal) v0 y
      = pmax fun a => pmax fun b => pmax fun c => pmax fun e => v0 (bwin y a b c e) := by
  unfold k0_pay1
  refine (cast_out _ _ y).trans ?_
  refine (red1 _ _ _ _ _).trans (congrArg pmax (funext fun a => ?_))
  refine (red3 _ _ _ _ _).trans (congrArg pmax (funext fun b => ?_))
  refine (red5 _ _ _ _ _).trans (congrArg pmax (funext fun c => ?_))
  refine (red7 _ _ _ _ _).trans (congrArg pmax (funext fun e => ?_))
  exact cast_in v0 _ _ _ _ _ _ y a b c e

end Cert.KernelIdeal.Block

end
-- ==== Proof.KernelValue.lean ====
/-
  The kernel's result array is the pooling function of its argument array. The grid has 2 · 16 · 2 points (n, k, s). Point
  (n, k, s) loads block (n, k, s, 0, 0, 0) of the argument, of extents (1, 1, 16, 32, 32, 32), and writes block
  (n, k, s, 0, 0, 0) of the result, of extents (1, 1, 8, 16, 16, 16). Entry (0, 0, t, d, h, w) of the written block is result
  index (n, k, 8s + t, d, h, w), and the loaded block's entry (0, 0, 2t + a, 2d + b, 2h + c, 2w + e) is argument index
  (n, k, 16s + 2t + a, 2d + b, 2h + c, 2w + e) = (n, k, 2(8s + t) + a, …): the window of that result index. So every point
  writes its block of the pooling function; the blocks cover the result (result index i lies in the block of the point
  (i₀, i₁, i₂ / 8)); hence the array after the run is the pooling function everywhere.
-/
import proofs.«172834_j31190052504126_2_alg».proof.Proof.Gen.KernelIdeal.Value
import proofs.«172834_j31190052504126_2_alg».proof.Proof.KernelBlock

noncomputable section

namespace Cert.KernelIdeal.PoolValue

open Cert.KernelIdeal Cert.KernelIdeal.Gen Cert.KernelIdeal.Block Idealize.ShloMosaic Idealize.ShloMosaic.TcCoe Idealize.SL.Sem
open Cert.Pool
open Idealize.ShloMosaic.Pipeline (Dat)

variable (m : (ℓ : Loc nD τ sig) → Buf (Elt Ideal) ℓ) (ρ : Dev nD → PrngReg)

/-- The body's loads and its store start at the origin of their buffers. -/
theorem origin : (![0, 0, 0, 0, 0, 0] : Fin 6 → Nat) = fun _ => 0 := funext fun a => by fin_cases a <;> rfl

/-- The two index maps over the grid: the loaded and the written block have the same block index, whose last three
    coordinates are 0 and whose first three stay below the block counts 2, 16, 2. -/
theorem index_facts : ∀ t : Fin cfg0.N,
    win0_0.index t (0 : Fin 6) = win0_1.index t (0 : Fin 6)
    ∧ win0_0.index t (1 : Fin 6) = win0_1.index t (1 : Fin 6)
    ∧ win0_0.index t (2 : Fin 6) = win0_1.index t (2 : Fin 6)
    ∧ win0_0.index t (3 : Fin 6) = 0 ∧ win0_0.index t (4 : Fin 6) = 0 ∧ win0_0.index t (5 : Fin 6) = 0
    ∧ win0_1.index t (3 : Fin 6) = 0 ∧ win0_1.index t (4 : Fin 6) = 0 ∧ win0_1.index t (5 : Fin 6) = 0 :=
  (by decide +kernel : ∀ t : Fin grid0.N, _)

/-- Every block index (n, k, s, 0, 0, 0) of the result is some point's. -/
theorem index_onto : ∀ (q0 : Fin 2) (q1 : Fin 16) (q2 : Fin 2), ∃ t : Fin cfg0.N, win0_1.index t = ![q0.val, q1.val, q2.val, 0, 0, 0] :=
  (by decide +kernel : ∀ (q0 : Fin 2) (q1 : Fin 16) (q2 : Fin 2), ∃ t : Fin grid0.N, win0_1.index t = ![q0.val, q1.val, q2.val, 0, 0, 0])

/-- WHAT POINT `t` WRITES BACK is block `t` of the pooling function of the argument array: the body's result at a block
    index is the fold over the loaded block's window entries, and each of those is the argument at the window entry of the
    result index the block index stands for. -/
theorem flushed_eq (c : Dev nD) (t : Fin cfg0.N) :
    (dats m 0 c).flushed 1 t = ((cfg0.win 1).blk t).view.read (Elt Ideal) (maxPool (V m c main_arg0)) := by
  rw [Cert.KernelIdeal.Value.flushed1]
  unfold out0_1
  rw [View.canon_unit_zero origin]
  simp only [View.ld_unit_zero (S := S1x1x16x32x32x32) origin]
  obtain ⟨e0, e1, e2, e3, e4, e5, f3, f4, f5⟩ := index_facts t
  funext y
  show k0_pay1 (F := Ideal) (iblk m c 0 t) y = maxPool (V m c main_arg0) (((cfg0.win 1).blk t).view.emb y)
  refine (pay_apply (iblk m c 0 t) y).trans ?_
  unfold maxPool
  refine congrArg pmax (funext fun a => congrArg pmax (funext fun b => congrArg pmax (funext fun c' =>
    congrArg pmax (funext fun e => ?_))))
  show V m c main_arg0 (((cfg0.win 0).blk t).view.emb (bwin y a b c' e))
    = V m c main_arg0 (win (((cfg0.win 1).blk t).view.emb y) a b c' e)
  refine congrArg _ (funext fun k => Fin.ext ?_)
  have hy0 : (y 0).val < 1 := (y 0).isLt
  have hy1 : (y 1).val < 1 := (y 1).isLt
  match k with
  | ⟨0, _⟩ =>
    show win0_0.index t (0 : Fin 6) * 1 + 1 * 0 = win0_1.index t (0 : Fin 6) * 1 + 1 * (y 0).val
    omega
  | ⟨1, _⟩ =>
    show win0_0.index t (1 : Fin 6) * 1 + 1 * 0 = win0_1.index t (1 : Fin 6) * 1 + 1 * (y 1).val
    omega
  | ⟨2, _⟩ =>
    show win0_0.index t (2 : Fin 6) * 16 + 1 * (2 * (y 2).val + a.val)
      = 2 * (win0_1.index t (2 : Fin 6) * 8 + 1 * (y 2).val) + a.val
    omega
  | ⟨3, _⟩ =>
    show win0_0.index t (3 : Fin 6) * 32 + 1 * (2 * (y 3).val + b.val)
      = 2 * (win0_1.index t (3 : Fin 6) * 16 + 1 * (y 3).val) + b.val
    omega
  | ⟨4, _⟩ =>
    show win0_0.index t (4 : Fin 6) * 32 + 1 * (2 * (y 4).val + c'.val)
      = 2 * (win0_1.index t (4 : Fin 6) * 16 + 1 * (y 4).val) + c'.val
    omega
  | ⟨5, _⟩ =>
    show win0_0.index t (5 : Fin 6) * 32 + 1 * (2 * (y 5).val + e.val)
      = 2 * (win0_1.index t (5 : Fin 6) * 16 + 1 * (y 5).val) + e.val
    omega

/-- A result index is in point `t`'s block iff each coordinate is in the block's range on its axis. -/
theorem mem_blk (t : Fin cfg0.N) (i : S2x16x16x16x16x16.Idx) :
    i ∈ ((cfg0.win 1).blk t).view.set ↔ ∀ a : Fin 6, win0_1.index t a * S1x1x8x16x16x16.size a ≤ (i a).val
      ∧ (i a).val < win0_1.index t a * S1x1x8x16x16x16.size a + S1x1x8x16x16x16.size a := by
  show i ∈ ((View.whole main_v0).slice (win0_1.rect t)).set ↔ _
  rw [View.set_slice_whole, Rect.mem_set_unit]
  exact Iff.rfl

/-- THE BLOCKS COVER THE RESULT: index `i` lies in the block of the point whose block index is (i₀, i₁, i₂ / 8, 0, 0, 0). -/
theorem cover (i : S2x16x16x16x16x16.Idx) :
    ∃ t : Fin cfg0.N, (cfg0.win 1).flush t = true ∧ i ∈ ((cfg0.win 1).blk t).view.set := by
  have h0 : (i 0).val < 2 := (i 0).isLt
  have h1 : (i 1).val < 16 := (i 1).isLt
  have h2 : (i 2).val < 16 := (i 2).isLt
  have h3 : (i 3).val < 16 := (i 3).isLt
  have h4 : (i 4).val < 16 := (i 4).isLt
  have h5 : (i 5).val < 16 := (i 5).isLt
  obtain ⟨t, ht⟩ := index_onto ⟨(i 0).val, h0⟩ ⟨(i 1).val, h1⟩ ⟨(i 2).val / 8, by omega⟩
  have q0 : win0_1.index t (0 : Fin 6) = (i 0).val := congrFun ht 0
  have q1 : win0_1.index t (1 : Fin 6) = (i 1).val := congrFun ht 1
  have q2 : win0_1.index t (2 : Fin 6) = (i 2).val / 8 := congrFun ht 2
  have q3 : win0_1.index t (3 : Fin 6) = 0 := congrFun ht 3
  have q4 : win0_1.index t (4 : Fin 6) = 0 := congrFun ht 4
  have q5 : win0_1.index t (5 : Fin 6) = 0 := congrFun ht 5
  refine ⟨t, flush0_1 t, ?_⟩
  rw [mem_blk]
  intro a
  match a with
  | ⟨0, _⟩ =>
    show win0_1.index t (0 : Fin 6) * 1 ≤ (i 0).val ∧ (i 0).val < win0_1.index t (0 : Fin 6) * 1 + 1
    omega
  | ⟨1, _⟩ =>
    show win0_1.index t (1 : Fin 6) * 1 ≤ (i 1).val ∧ (i 1).val < win0_1.index t (1 : Fin 6) * 1 + 1
    omega
  | ⟨2, _⟩ =>
    show win0_1.index t (2 : Fin 6) * 8 ≤ (i 2).val ∧ (i 2).val < win0_1.index t (2 : Fin 6) * 8 + 8
    omega
  | ⟨3, _⟩ =>
    show win0_1.index t (3 : Fin 6) * 16 ≤ (i 3).val ∧ (i 3).val < win0_1.index t (3 : Fin 6) * 16 + 16
    omega
  | ⟨4, _⟩ =>
    show win0_1.index t (4 : Fin 6) * 16 ≤ (i 4).val ∧ (i 4).val < win0_1.index t (4 : Fin 6) * 16 + 16
    omega
  | ⟨5, _⟩ =>
    show win0_1.index t (5 : Fin 6) * 16 ≤ (i 5).val ∧ (i 5).val < win0_1.index t (5 : Fin 6) * 16 + 16
    omega

/-- THE RESULT ARRAY after the run is the pooling function of the argument array as launched. -/
theorem final (c : Dev nD) : (dats m 0 c).arrAt 1 cfg0.N = maxPool (m ((c : Thread nD τ).loc main_arg0)) :=
  (dats m 0 c).arrAt_eq_of_cover 1 (maxPool (V m c main_arg0)) (fun t _ => flushed_eq m c t) cover

/-- The kernel's run: every weakly fair execution ends with the result array at the pooling function of the argument array
    and the argument array unchanged. -/
theorem run : θ_run defs (onTc (τ := τ) (main (F := Ideal))) ⟨m, fun _ => 0, ρ⟩ fun r => ∀ c : Dev nD,
      r.2.mem ((c : Thread nD τ).loc main_v0) = maxPool (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩)
    (Cert.KernelIdeal.Value.run_blocks m ρ)

end Cert.KernelIdeal.PoolValue

end
-- ==== Proof.LibReduceWindowMax.lean ====
/-
  The host's windowed reduction with a maximum body, read at the extended reals through its upper bounds. The operation
  folds `max`, from the initial value, over the positions of a window in row-major order; a position inside the operand
  contributes the operand's entry there, a position in the padding the initial value. When NO position of the window at
  result index `j` falls in the padding, the result at `j` is below `z` exactly when the initial value and every entry of
  the window are below `z`. Since two extended reals with the same upper bounds are equal, this is all a proof needs to set
  the operation beside any other way of taking the same maximum: the order and grouping of the fold do not appear, the
  initial value is not evaluated, and no entry has to be finite.
-/
import Idealize.ShloMosaic.PureOps.Ideal

noncomputable section

namespace Idealize.ShloMosaic.ReduceWindowMax

open Idealize.ShloMosaic

variable {φ : FTy}

/-- A left fold of `max` from `v` along a list has the upper bounds of `v` and of every entry met. -/
theorem foldl_max_le_iff {ι : Type} (l : List ι) (g : ι → Ideal φ) (v z : Ideal φ) :
    l.foldl (fun r n => max r (g n)) v ≤ z ↔ v ≤ z ∧ ∀ n ∈ l, g n ≤ z := by
  induction l generalizing v with
  | nil => simp
  | cons n l ih =>
    rw [List.foldl_cons, ih, max_le_iff]
    simp only [List.mem_cons, forall_eq_or_imp, and_assoc]

/-- THE UPPER BOUNDS OF A WINDOWED MAXIMUM whose window at `j` lies inside the operand (`hin`: on every axis the position
    `j · stride + w` is at or past the low padding and, the padding taken off, inside the axis): those of the initial value
    and of the operand at every position `w` of the window. Every row-major position number names one window position and
    every window position has a number, so ranging over the numbers is ranging over the positions. -/
theorem reduceWindow_max_le_iff {s t u : Shape} (window strides lo hi : Fin s.rank → Nat) (x : s.Idx → Ideal φ)
    (init : u.Idx → Ideal φ) (h : s.ReduceWindows window strides lo hi t) (hu : 0 < u.numel) (j : t.Idx)
    (hin : ∀ (w : (⟨s.rank, window⟩ : Shape).Idx) (a : Fin s.rank),
      lo a ≤ (j (a.cast h.1.symm)).val * strides a + (w a).val
        ∧ (j (a.cast h.1.symm)).val * strides a + (w a).val - lo a < s.size a) (z : Ideal φ) :
    Host.reduceWindow (FloatOps.maximumf (F := Ideal) (φ := φ)) window strides lo hi x init h hu j ≤ z
      ↔ init (Shape.Idx.first hu) ≤ z
        ∧ ∀ w : (⟨s.rank, window⟩ : Shape).Idx,
            x (fun a => ⟨(j (a.cast h.1.symm)).val * strides a + (w a).val - lo a, (hin w a).2⟩) ≤ z := by
  let W : Shape := ⟨s.rank, window⟩
  let P : W.Idx → Ideal φ := fun w =>
    if hw : ∀ a, lo a ≤ (j (a.cast h.1.symm)).val * strides a + (w a).val
        ∧ (j (a.cast h.1.symm)).val * strides a + (w a).val - lo a < s.size a
    then x (fun a => ⟨(j (a.cast h.1.symm)).val * strides a + (w a).val - lo a, (hw a).2⟩)
    else init (Shape.Idx.first hu)
  have hP : ∀ w, P w = x (fun a => ⟨(j (a.cast h.1.symm)).val * strides a + (w a).val - lo a, (hin w a).2⟩) :=
    fun w => dif_pos (hin w)
  show List.foldl (fun r n => max r (P (W.rowMajor.symm n))) (init (Shape.Idx.first hu)) (List.finRange W.numel) ≤ z ↔ _
  rw [foldl_max_le_iff]
  refine and_congr Iff.rfl ⟨fun hh w => ?_, fun hh n _ => ?_⟩
  · have hw := hh (W.rowMajor w) (List.mem_finRange _)
    rw [Equiv.symm_apply_apply, hP] at hw
    exact hw
  · rw [hP]
    exact hh _

end Idealize.ShloMosaic.ReduceWindowMax

end
-- ==== Proof.RefValue.lean ====
/-
  The reference's windowed maximum is the pooling function. The reference takes, at each result index j, the maximum over a
  window of extents (1, 1, 2, 2, 2, 2) placed at j · (1, 1, 2, 2, 2, 2), with no padding. A window position w = (0, 0, a, b, c, e)
  lands at (j₀, j₁, 2j₂ + a, 2j₃ + b, 2j₄ + c, 2j₅ + e), which is inside the operand (2 · 15 + 1 < 32), so no position is
  padding; and these are exactly the sixteen entries the pooling function folds. Same entries, same initial value: same upper
  bounds, hence equal.
-/
import proofs.«172834_j31190052504126_2_alg».proof.Proof.Gen.ReferenceIdeal.Read
import proofs.«172834_j31190052504126_2_alg».proof.Proof.PoolSpec
import proofs.«172834_j31190052504126_2_alg».proof.Proof.LibReduceWindowMax
import Idealize.ShloMosaic.Lib.ValueIdxRank6

noncomputable section

namespace Cert.ReferenceIdeal.RefValue

open Cert.ReferenceIdeal Cert.ReferenceIdeal.Gen Idealize.ShloMosaic Idealize.ShloMosaic.ValueIdx Cert.Pool
open Idealize.ShloMosaic.ReduceWindowMax

/-- The window's positions: extents (1, 1, 2, 2, 2, 2). -/
abbrev Win : Shape := ⟨6, ![1, 1, 2, 2, 2, 2]⟩

/-- Every position of the window at `j` is inside the operand: on the two leading axes the window has one position and the
    stride is one; on a pooled axis 2·j + w ≤ 2·15 + 1 < 32. -/
theorem inside (j : S2x16x16x16x16x16.Idx) (w : Win.Idx) (a : Fin 6) :
    (![0, 0, 0, 0, 0, 0] : Fin 6 → Nat) a ≤ (j a).val * (![1, 1, 2, 2, 2, 2] : Fin 6 → Nat) a + (w a).val
      ∧ (j a).val * (![1, 1, 2, 2, 2, 2] : Fin 6 → Nat) a + (w a).val - (![0, 0, 0, 0, 0, 0] : Fin 6 → Nat) a
          < S2x16x32x32x32x32.size a := by
  match a with
  | ⟨0, _⟩ =>
    have hj : (j 0).val < 2 := (j 0).isLt
    have hw : (w 0).val < 1 := (w 0).isLt
    show 0 ≤ (j 0).val * 1 + (w 0).val ∧ (j 0).val * 1 + (w 0).val - 0 < 2
    omega
  | ⟨1, _⟩ =>
    have hj : (j 1).val < 16 := (j 1).isLt
    have hw : (w 1).val < 1 := (w 1).isLt
    show 0 ≤ (j 1).val * 1 + (w 1).val ∧ (j 1).val * 1 + (w 1).val - 0 < 16
    omega
  | ⟨2, _⟩ =>
    have hj : (j 2).val < 16 := (j 2).isLt
    have hw : (w 2).val < 2 := (w 2).isLt
    show 0 ≤ (j 2).val * 2 + (w 2).val ∧ (j 2).val * 2 + (w 2).val - 0 < 32
    omega
  | ⟨3, _⟩ =>
    have hj : (j 3).val < 16 := (j 3).isLt
    have hw : (w 3).val < 2 := (w 3).isLt
    show 0 ≤ (j 3).val * 2 + (w 3).val ∧ (j 3).val * 2 + (w 3).val - 0 < 32
    omega
  | ⟨4, _⟩ =>
    have hj : (j 4).val < 16 := (j 4).isLt
    have hw : (w 4).val < 2 := (w 4).isLt
    show 0 ≤ (j 4).val * 2 + (w 4).val ∧ (j 4).val * 2 + (w 4).val - 0 < 32
    omega
  | ⟨5, _⟩ =>
    have hj : (j 5).val < 16 := (j 5).isLt
    have hw : (w 5).val < 2 := (w 5).isLt
    show 0 ≤ (j 5).val * 2 + (w 5).val ∧ (j 5).val * 2 + (w 5).val - 0 < 32
    omega

/-- Where window position `w` of the window at `j` lands: the pooling function's window entry at the offsets `w` carries on
    the four pooled axes (on the two leading axes the window's only position is 0). -/
theorem landing (j : S2x16x16x16x16x16.Idx) (w : Win.Idx)
    (hb : ∀ a : Fin 6, (j a).val * (![1, 1, 2, 2, 2, 2] : Fin 6 → Nat) a + (w a).val - (![0, 0, 0, 0, 0, 0] : Fin 6 → Nat) a
      < S2x16x32x32x32x32.size a) :
    ((fun a => ⟨(j a).val * (![1, 1, 2, 2, 2, 2] : Fin 6 → Nat) a + (w a).val - (![0, 0, 0, 0, 0, 0] : Fin 6 → Nat) a, hb a⟩) :
        S2x16x32x32x32x32.Idx)
      = win j (w 2) (w 3) (w 4) (w 5) := by
  funext a
  apply Fin.ext
  match a with
  | ⟨0, _⟩ =>
    have hw : (w 0).val < 1 := (w 0).isLt
    show (j 0).val * 1 + (w 0).val - 0 = (j 0).val
    omega
  | ⟨1, _⟩ =>
    have hw : (w 1).val < 1 := (w 1).isLt
    show (j 1).val * 1 + (w 1).val - 0 = (j 1).val
    omega
  | ⟨2, _⟩ => show (j 2).val * 2 + (w 2).val - 0 = 2 * (j 2).val + (w 2).val; omega
  | ⟨3, _⟩ => show (j 3).val * 2 + (w 3).val - 0 = 2 * (j 3).val + (w 3).val; omega
  | ⟨4, _⟩ => show (j 4).val * 2 + (w 4).val - 0 = 2 * (j 4).val + (w 4).val; omega
  | ⟨5, _⟩ => show (j 5).val * 2 + (w 5).val - 0 = 2 * (j 5).val + (w 5).val; omega

/-- THE REFERENCE'S RESULT IS THE POOLING FUNCTION of its argument: at every index both have the upper bounds of the initial
    value and of the window's sixteen entries. -/
theorem ref_eq_maxPool (x0 : (⟨S2x16x32x32x32x32, .f32⟩ : BufTy).Contents (Elt Ideal)) :
    Read.val_main_v0 (F := Ideal) x0 = maxPool x0 := by
  funext j
  refine eq_of_forall_ge_iff fun z => ?_
  rw [maxPool_le_iff]
  unfold Read.val_main_v0
  refine (reduceWindow_max_le_iff _ _ _ _ x0 _ _ _ j (fun w a => inside j w a) z).trans ?_
  refine and_congr Iff.rfl ⟨fun hh a b c e => ?_, fun hh w => ?_⟩
  · exact (congrArg x0 (landing j (ix6 (n0 := 1) (n1 := 1) (n2 := 2) (n3 := 2) (n4 := 2) (n5 := 2) (0 : Fin 1) (0 : Fin 1) a b c e) _)).symm.trans_le
      (hh (ix6 (n0 := 1) (n1 := 1) (n2 := 2) (n3 := 2) (n4 := 2) (n5 := 2) (0 : Fin 1) (0 : Fin 1) a b c e))
  · exact (congrArg x0 (landing j w _)).trans_le (hh (w 2) (w 3) (w 4) (w 5))

end Cert.ReferenceIdeal.RefValue

end
-- ==== Proof.lean ====
/-
  Max pooling with window 2 and stride 2 over the last four axes of a [2, 16, 32, 32, 32, 32] array: a kernel that reshapes each
  pooled axis into (outer, pair) and takes the maximum over the four pair axes one at a time, block by block over a grid,
  against a reference that takes one windowed maximum over 2 × 2 × 2 × 2 windows from −∞.

  At the extended reals both compute the same function of the argument, index by index: the largest of the sixteen entries
  (n, k, 2t + a, 2d + b, 2h + c, 2w + e), folded with the value every fold starts from. The kernel's array is that function
  because each grid point writes its block of it and the blocks cover the result; the reference's is that function because no
  window position is padding and the window's positions are those sixteen entries. The two are set side by side through upper
  bounds: a fold of `max` is below `z` exactly when its seed and all its entries are, so the order and grouping of the folds
  do not matter, the seed is never evaluated, and nothing needs the inputs to be finite — the precondition is not used.

  The three frames are the programs' runs with the value dropped; the idealization rewrote no operation, so there is nothing
  to preserve.
-/
import proofs.«172834_j31190052504126_2_alg».proof.Defs
import proofs.«172834_j31190052504126_2_alg».proof.Proof.Gen.Kernel
import proofs.«172834_j31190052504126_2_alg».proof.Proof.Gen.Kernel.Skeleton
import proofs.«172834_j31190052504126_2_alg».proof.Proof.Gen.Kernel.Launch
import proofs.«172834_j31190052504126_2_alg».proof.Proof.Gen.Kernel.Points
import proofs.«172834_j31190052504126_2_alg».proof.Proof.Gen.Kernel.Frame
import proofs.«172834_j31190052504126_2_alg».proof.Proof.Gen.KernelIdeal
import proofs.«172834_j31190052504126_2_alg».proof.Proof.Gen.KernelIdeal.Skeleton
import proofs.«172834_j31190052504126_2_alg».proof.Proof.Gen.KernelIdeal.Launch
import proofs.«172834_j31190052504126_2_alg».proof.Proof.Gen.KernelIdeal.Points
import proofs.«172834_j31190052504126_2_alg».proof.Proof.Gen.KernelIdeal.Frame
import proofs.«172834_j31190052504126_2_alg».proof.Proof.Gen.ReferenceIdeal
import proofs.«172834_j31190052504126_2_alg».proof.Proof.Gen.KernelIdeal.Value
import proofs.«172834_j31190052504126_2_alg».proof.Proof.Gen.ReferenceIdeal.Run
import proofs.«172834_j31190052504126_2_alg».proof.Proof.Gen.ReferenceIdeal.Read
import proofs.«172834_j31190052504126_2_alg».proof.Proof.Gen.Pre_finite_inputs
import proofs.«172834_j31190052504126_2_alg».proof.Proof.KernelValue
import proofs.«172834_j31190052504126_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs, and its argument ends unchanged. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation: nothing to preserve. -/
theorem preserves : Cert.preserves_Kernel_KernelIdeal := trivial

/-- From memories agreeing on the argument, both programs end with the result array at the pooling function of that
    argument: the kernel's array by its blocks, the reference's by its window. -/
theorem algebraic : Cert.algebraic_KernelIdeal_ReferenceIdeal := by
  intro m ρ m' ρ' _ hagree
  refine ⟨_, Cert.KernelIdeal.PoolValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v0_eq, Cert.ReferenceIdeal.RefValue.ref_eq_maxPool, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
